-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S32768x64 : Shape := ⟨2, ![32768, 64]⟩
abbrev S2048x2048 : Shape := ⟨2, ![2048, 2048]⟩
abbrev S64x2048 : Shape := ⟨2, ![64, 2048]⟩
abbrev S2048x64 : Shape := ⟨2, ![2048, 64]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64x4096, .bf16⟩
  | .hbm, ⟨3, _⟩ => ⟨S32768x64, .f32⟩
  | .local _ .vmem, ⟨0, _⟩ => ⟨S2048x2048, .f32⟩
  | .local _ .vmem, ⟨1, _⟩ => ⟨S2048x2048, .f32⟩
  | .local _ .vmem, ⟨2, _⟩ => ⟨S64x2048, .bf16⟩
  | .local _ .vmem, ⟨3, _⟩ => ⟨S64x2048, .bf16⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  dot_S2048x2048_S64x2048_S2048x64_1_1_0_0_n_n_wf : DotDims.WF S2048x2048 S64x2048 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x4096.size a
  hwx0_0 : ∀ i : grid0.Coords, EltTy.bits .f32 = 32 ∨ (Rect.block (s := S32768x4096) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x4096.size a
  hwx0_1 : ∀ i : grid0.Coords, EltTy.bits .bf16 = 32 ∨ (Rect.block (s := S64x4096) S64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S32768x64.size a
  hwx0_2 : ∀ i : grid0.Coords, EltTy.bits .f32 = 32 ∨ (Rect.block (s := S32768x64) S2048x64.size (cc0_transform_2 i) (hinb0_2 i)).WholeWords (EltTy.packing .f32)

variable [Facts₀]

def dot_S2048x2048_S64x2048_S2048x64_1_1_0_0_n_n : DotDims S2048x2048 S64x2048 S2048x64 where
  lhsContracting := [1]
  rhsContracting := [1]
  lhsNonContracting := [0]
  rhsNonContracting := [0]
  lhsBatch := []
  rhsBatch := []
  wf := dot_S2048x2048_S64x2048_S2048x64_1_1_0_0_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩

abbrev nBuf : Space → Nat
  | .hbm => 18
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Softmax.lean ====
/-
  The router gate as one function of its two argument arrays, over the extended reals.

  For tokens x (32768 × 4096) and expert weights w (64 × 4096), the logit of token r for expert e is the inner
  product of row r of x with row e of w. The gate of token r is the softmax of its 64 logits: each logit is shifted
  by the row's maximum, exponentiated, and divided by the sum of the row's 64 exponentials. The maximum of a row is
  the fold of max from minus infinity, so the definition reads the same on a row holding infinities.

  The inner product over 4096 columns is the sum of the inner products over the first and the last 2048 columns:
  addition of extended reals is commutative and associative, so no finiteness is asked.
-/
import Idealize.ShloMosaic.PureOps.Ideal
import Idealize.ShloMosaic.PureOps.Ideal.Laws
import Idealize.ShloMosaic.Lib.ValueIdx

noncomputable section

open scoped BigOperators

namespace Cert.Gate

open Idealize.ShloMosaic Idealize.ShloMosaic.ValueIdx

/-- The maximum of a row of 64 logits: the fold of max from minus infinity. -/
def rowMax (l : Fin 64 → EReal) : EReal :=
  (Finset.univ : Finset (Fin 64)).fold max (Ideal.ofBits .f32 0xFF800000#32) l

/-- The softmax of a row of 64 logits at expert e. -/
def rowSoftmax (l : Fin 64 → EReal) (e : Fin 64) : EReal :=
  Ideal.div (Ideal.exp (l e - rowMax l)) (∑ j : Fin 64, Ideal.exp (l j - rowMax l))

/-- The logit of token r for expert e: row r of x against row e of w. -/
def logit (x : (⟨2, ![32768, 4096]⟩ : Shape).Idx → EReal) (w : (⟨2, ![64, 4096]⟩ : Shape).Idx → EReal)
    (r : Fin 32768) (e : Fin 64) : EReal :=
  ∑ k : Fin 4096, x (ix2 r k) * w (ix2 e k)

/-- The gate: at (r, e) the softmax over the experts of token r's logits. -/
def gate (x : (⟨2, ![32768, 4096]⟩ : Shape).Idx → EReal) (w : (⟨2, ![64, 4096]⟩ : Shape).Idx → EReal) :
    (⟨2, ![32768, 64]⟩ : Shape).Idx → EReal :=
  fun i => rowSoftmax (logit x w ⟨(i 0).val, idx2_lt0 i⟩) ⟨(i 1).val, idx2_lt1 i⟩

theorem gate_apply (x : (⟨2, ![32768, 4096]⟩ : Shape).Idx → EReal) (w : (⟨2, ![64, 4096]⟩ : Shape).Idx → EReal)
    (r : Fin 32768) (e : Fin 64) : gate x w (ix2 r e) = rowSoftmax (logit x w r) e := rfl

/-- A sum over 4096 columns is the sum over the first 2048 plus the sum over the last 2048. -/
theorem sum_halves (f : Fin 4096 → EReal) :
    ∑ k : Fin 4096, f k
      = ∑ k : Fin 2048, f ⟨k.val, by have := k.isLt; omega⟩ + ∑ k : Fin 2048, f ⟨2048 + k.val, by have := k.isLt; omega⟩ :=
  Fin.sum_univ_add (a := 2048) (b := 2048) f

/-- Taking the maximum with minus infinity again changes nothing: the fold started there. -/
theorem max_rowMax (l : Fin 64 → EReal) : max (Ideal.ofBits .f32 0xFF800000#32) (rowMax l) = rowMax l :=
  max_eq_right (by unfold rowMax; exact (Finset.le_fold_max _).mpr (Or.inl le_rfl))

end Cert.Gate

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.RefGate.lean ====
/-
  The reference computes the gate.

  Read one operation at a time, the reference's last stage at (r, e) is: the exponential of token r's logit for
  expert e less the row's maximum, divided by the sum over the 64 experts of those exponentials. The logit is the
  inner product of row r of x with column e of the transposed weights, that is with row e of w. The row's maximum
  is taken from minus infinity and then once more against minus infinity, which changes nothing; the row's sum
  starts from zero, which adds nothing.
-/
import proofs.«100009_g70300024701271_cont_9to1_m_399_17_alg».proof.Proof.Gen.ReferenceIdeal.Read
import proofs.«100009_g70300024701271_cont_9to1_m_399_17_alg».proof.Proof.LibRowOps
import proofs.«100009_g70300024701271_cont_9to1_m_399_17_alg».proof.Proof.Softmax

noncomputable section

open scoped BigOperators

namespace Cert.ReferenceIdeal.RefGate

open Cert.ReferenceIdeal Cert.ReferenceIdeal.Gen Cert.ReferenceIdeal.Read Idealize.ShloMosaic Idealize.ShloMosaic.ValueIdx Cert.Gate
open Idealize.ShloMosaic.RowOps

variable (x : (⟨S32768x4096, .f32⟩ : BufTy).Contents (Elt Ideal)) (w : (⟨S64x4096, .f32⟩ : BufTy).Contents (Elt Ideal))

/-- The product stage at (r, e) is token r's logit for expert e. -/
theorem logit_stage (r : Fin 32768) (e : Fin 64) : val_main_v1 (F := Ideal) x w (ix2 r e) = logit x w r e := by
  rw [val_main_v1_apply]
  unfold logit
  refine Finset.sum_congr rfl fun k _ => ?_
  rw [val_main_v0_apply]
  have el : lidx_main_v1 (ix2 r e) k = ix2 r k :=
    funext fun a => Fin.ext (by match a with | ⟨0, _⟩ => rfl | ⟨1, _⟩ => rfl)
  have er : idx_main_v0 (ridx_main_v1 (ix2 r e) k) = ix2 e k :=
    funext fun a => Fin.ext (by match a with | ⟨0, _⟩ => rfl | ⟨1, _⟩ => rfl)
  rw [el, er]

/-- The product stage's row r is the row of token r's logits. -/
theorem logit_row (r : Fin 32768) : (fun j : Fin 64 => val_main_v1 (F := Ideal) x w (ix2 r j)) = logit x w r :=
  funext fun j => logit_stage x w r j

/-- The maximum stage at r is the maximum of token r's logits. -/
theorem max_stage (r : Fin 32768) : val_main_v4 (F := Ideal) x w (ix1 r) = rowMax (logit x w r) := by
  rw [val_main_v4_apply, val_main_v3_apply, val_main_cst_0_apply]
  have h2 : val_main_v2 (F := Ideal) x w (ix1 r) = rowMax (logit x w r) := by
    unfold val_main_v2
    rw [rowMax_host (val_main_v1 (F := Ideal) x w) (val_main_cst (F := Ideal)) reducesTo_S32768x64_S32768_d1 (by decide) h_S_ r,
      val_main_cst_apply, logit_row]
    rfl
  rw [h2]
  exact max_rowMax _

/-- The exponential stage at (r, e). -/
theorem exp_stage (r : Fin 32768) (e : Fin 64) :
    val_main_v8 (F := Ideal) x w (ix2 r e) = Ideal.exp (logit x w r e - rowMax (logit x w r)) := by
  rw [val_main_v8_apply, val_main_v7_apply, val_main_v6_apply, val_main_v5_apply, logit_stage]
  have e1 : idx_main_v5 (idx_main_v6 (ix2 r e)) = ix1 r :=
    funext fun a => Fin.ext (by match a with | ⟨0, _⟩ => rfl)
  rw [e1, max_stage]
  rfl

/-- The sum stage at r: the sum of token r's 64 exponentials. -/
theorem sum_stage (r : Fin 32768) :
    val_main_v9 (F := Ideal) x w (ix1 r) = ∑ j : Fin 64, Ideal.exp (logit x w r j - rowMax (logit x w r)) := by
  rw [val_main_v9_apply, val_main_cst_1_apply]
  show Ideal.ofBits .f32 0x00000000#32 + _ = _
  rw [Ideal.ofBits_zero_f32, zero_add]
  refine Finset.sum_congr rfl fun k _ => ?_
  have e1 : idx_main_v9 (ix1 r) k = ix2 r k :=
    funext fun a => Fin.ext (by match a with | ⟨0, _⟩ => rfl | ⟨1, _⟩ => rfl)
  rw [e1, exp_stage]

/-- The reference's last stage is the gate of its two arguments. -/
theorem gate_stage : val_main_v12 (F := Ideal) x w = gate x w := by
  funext i
  obtain ⟨r, e, rfl⟩ : ∃ (r : Fin 32768) (e : Fin 64), i = ix2 r e := ⟨i 0, i 1, eq_ix2 i⟩
  rw [val_main_v12_apply, val_main_v11_apply, val_main_v10_apply, exp_stage]
  have e1 : idx_main_v10 (idx_main_v11 (ix2 r e)) = ix1 r :=
    funext fun a => Fin.ext (by match a with | ⟨0, _⟩ => rfl)
  rw [e1, sum_stage, gate_apply]
  rfl

end Cert.ReferenceIdeal.RefGate

end
-- ==== Proof.Payloads.lean ====
/-
  The kernel body's arithmetic, read at an index, over the extended reals.

  The block product: a 2048 × 2048 block of tokens against a 64 × 2048 block of weights, contracted over the
  columns of both into a zero accumulator, is at (p, q) the sum over the 2048 columns k of token entry (p, k)
  times weight entry (q, k); the change of number format on the way is the identity.
  The first column step stores that product; a later one stores the accumulator plus the product.
  The last step turns a 2048 × 64 block of logits into its row softmax: at (p, q) the exponential of entry (p, q)
  less row p's maximum, over the sum of row p's exponentials.
-/
import proofs.«100009_g70300024701271_cont_9to1_m_399_17_alg».proof.Proof.Gen.KernelIdeal.Skeleton
import proofs.«100009_g70300024701271_cont_9to1_m_399_17_alg».proof.Proof.LibRowOps
import proofs.«100009_g70300024701271_cont_9to1_m_399_17_alg».proof.Proof.Softmax
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.Gate
open Idealize.ShloMosaic.RowOps

/-! ## The block product's operand indices -/

theorem lhs_row (i : S2048x64.Idx) (k : dot_S2048x2048_S64x2048_S2048x64_1_1_0_0_n_n.contr.Idx) :
    (dot_S2048x2048_S64x2048_S2048x64_1_1_0_0_n_n.lhsIdx i k 0).val = (i 0).val := by
  unfold DotDims.lhsIdx
  rw [dif_neg (show ¬(0 : Fin S2048x2048.rank) ∈ dot_S2048x2048_S64x2048_S2048x64_1_1_0_0_n_n.lhsBatch by decide),
    dif_pos (show (0 : Fin S2048x2048.rank) ∈ dot_S2048x2048_S64x2048_S2048x64_1_1_0_0_n_n.lhsNonContracting by decide)]
  rfl

theorem lhs_col (i : S2048x64.Idx) (k : dot_S2048x2048_S64x2048_S2048x64_1_1_0_0_n_n.contr.Idx) :
    (dot_S2048x2048_S64x2048_S2048x64_1_1_0_0_n_n.lhsIdx i k 1).val = (k ⟨0, by decide⟩).val :=
  dot_S2048x2048_S64x2048_S2048x64_1_1_0_0_n_n.lhsIdx_val_of_single rfl i k

theorem rhs_row (i : S2048x64.Idx) (k : dot_S2048x2048_S64x2048_S2048x64_1_1_0_0_n_n.contr.Idx) :
    (dot_S2048x2048_S64x2048_S2048x64_1_1_0_0_n_n.rhsIdx i k 0).val = (i 1).val := by
  unfold DotDims.rhsIdx
  rw [dif_neg (show ¬(0 : Fin S64x2048.rank) ∈ dot_S2048x2048_S64x2048_S2048x64_1_1_0_0_n_n.rhsBatch by decide),
    dif_pos (show (0 : Fin S64x2048.rank) ∈ dot_S2048x2048_S64x2048_S2048x64_1_1_0_0_n_n.rhsNonContracting by decide)]
  rfl

theorem rhs_col (i : S2048x64.Idx) (k : dot_S2048x2048_S64x2048_S2048x64_1_1_0_0_n_n.contr.Idx) :
    (dot_S2048x2048_S64x2048_S2048x64_1_1_0_0_n_n.rhsIdx i k 1).val = (k ⟨0, by decide⟩).val :=
  dot_S2048x2048_S64x2048_S2048x64_1_1_0_0_n_n.rhsIdx_val_of_single rfl i k

/-! ## The block product -/

/-- Token block x0 against weight block x1 at (p, q): the sum over the block's 2048 columns. -/
def blockDot (x0 : Vec Ideal S2048x2048 .f32) (x1 : Vec Ideal S64x2048 .bf16) (p : Fin 2048) (q : Fin 64) : EReal :=
  ∑ k : Fin 2048, x0 (ix2 p k) * x1 (ix2 q k)

theorem product_apply (x0 : Vec Ideal S2048x2048 .f32) (x1 : Vec Ideal S64x2048 .bf16) (p : Fin 2048) (q : Fin 64) :
    k0_pay1 (F := Ideal) x0 x1 (ix2 p q) = blockDot x0 x1 p q := by
  unfold k0_pay1 blockDot
  simp only [matmul, shapeCast_self]
  rw [Ideal.matmul_constant_zero_apply,
    ← Equiv.sum_comp (contrEquiv1 dot_S2048x2048_S64x2048_S2048x64_1_1_0_0_n_n 2048 rfl rfl).symm]
  refine Finset.sum_congr rfl fun k _ => ?_
  have hk := contrEquiv1_symm_val dot_S2048x2048_S64x2048_S2048x64_1_1_0_0_n_n 2048 rfl rfl k
  have el : dot_S2048x2048_S64x2048_S2048x64_1_1_0_0_n_n.lhsIdx (ix2 p q) ((contrEquiv1 dot_S2048x2048_S64x2048_S2048x64_1_1_0_0_n_n 2048 rfl rfl).symm k) = ix2 p k :=
    funext fun a => Fin.ext (by
      match a with
      | ⟨0, _⟩ => exact lhs_row _ _
      | ⟨1, _⟩ => exact (lhs_col _ _).trans hk)
  have er : dot_S2048x2048_S64x2048_S2048x64_1_1_0_0_n_n.rhsIdx (ix2 p q) ((contrEquiv1 dot_S2048x2048_S64x2048_S2048x64_1_1_0_0_n_n 2048 rfl rfl).symm k) = ix2 q k :=
    funext fun a => Fin.ext (by
      match a with
      | ⟨0, _⟩ => exact rhs_row _ _
      | ⟨1, _⟩ => exact (rhs_col _ _).trans hk)
  rw [el, er]
  rfl

/-- The first column step stores the block product. -/
theorem first_apply (x0 : Vec Ideal S2048x2048 .f32) (x1 : Vec Ideal S64x2048 .bf16) (p : Fin 2048) (q : Fin 64) :
    k0_pay2 (F := Ideal) x0 x1 (ix2 p q) = blockDot x0 x1 p q := by
  unfold k0_pay2
  rw [shapeCast_self]
  exact product_apply x0 x1 p q

/-- A later column step stores the accumulator plus the block product. -/
theorem later_apply (x0 : Vec Ideal S2048x2048 .f32) (x1 : Vec Ideal S64x2048 .bf16) (acc : Vec Ideal S2048x64 .f32)
    (p : Fin 2048) (q : Fin 64) :
    k0_pay3 (F := Ideal) x0 x1 acc (ix2 p q) = acc (ix2 p q) + blockDot x0 x1 p q := by
  unfold k0_pay3
  rw [shapeCast_self]
  exact congrArg (acc (ix2 p q) + ·) (product_apply x0 x1 p q)

/-! ## The row softmax -/

/-- With the row maxima given as a vector: the shifted exponentials over their row sums. -/
theorem softmax_of_max (v : FVec Ideal S2048x64 .f32) (mx : FVec Ideal S2048 .f32)
    (hmx : ∀ p : Fin 2048, mx (ix1 p) = rowMax fun j => v (ix2 p j))
    (h1 : S2048.ShapeCasts S2048x1) (h2 : S2048x1.Broadcasts S2048x64) (hr : S2048x64.Reduces [1] S2048)
    (hφ : FKind.Formats .f32) (hacc : (0x00000000#32 : BitVec 32) = FKind.add.neutral .f32 hφ) (p : Fin 2048) (q : Fin 64) :
    divf (exp (subf v (broadcastTo S2048x64 (shapeCast S2048x1 mx h1) h2)))
        (broadcastTo S2048x64 (shapeCast S2048x1
          (multiReduction .add [1] S2048 (exp (subf v (broadcastTo S2048x64 (shapeCast S2048x1 mx h1) h2))) 0x00000000#32 hr hφ hacc) h1) h2)
        (ix2 p q)
      = rowSoftmax (fun j => v (ix2 p j)) q := by
  have hex : ∀ j : Fin 64, exp (subf v (broadcastTo S2048x64 (shapeCast S2048x1 mx h1) h2)) (ix2 p j)
      = Ideal.exp (v (ix2 p j) - rowMax fun j => v (ix2 p j)) := fun j => by
    show Ideal.exp (v (ix2 p j) - broadcastTo S2048x64 (shapeCast S2048x1 mx h1) h2 (ix2 p j)) = _
    rw [colBcast_apply, colCast_apply, hmx]
  show Ideal.div (exp (subf v (broadcastTo S2048x64 (shapeCast S2048x1 mx h1) h2)) (ix2 p q))
      (broadcastTo S2048x64 (shapeCast S2048x1 (multiReduction .add [1] S2048 (exp (subf v (broadcastTo S2048x64 (shapeCast S2048x1 mx h1) h2))) 0x00000000#32 hr hφ hacc) h1) h2 (ix2 p q)) = _
  rw [colBcast_apply, colCast_apply, rowSum_vector, hex]
  unfold rowSoftmax
  exact congrArg (Ideal.div _) (Finset.sum_congr rfl fun j _ => hex j)

/-- The last step's store: the row softmax of the accumulated logits. -/
theorem softmax_apply (v : Vec Ideal S2048x64 .f32) (p : Fin 2048) (q : Fin 64) :
    k0_pay4 (F := Ideal) v (ix2 p q) = rowSoftmax (fun j => v (ix2 p j)) q := by
  unfold k0_pay4
  exact softmax_of_max v _ (fun p => rowMax_vector v _ _ _ _ p) _ _ _ _ _ p q

end Cert.KernelIdeal.Payloads

end
-- ==== Proof.Pieces.lean ====
/-
  What one run of the body leaves behind, as the body's own arithmetic of what it loaded.

  At a point of the first column step the body stores the block product into the accumulator and leaves the output
  block alone. At a point of the last column step it stores the accumulator plus the block product back into the
  accumulator, reads that back, and stores its row softmax into the output block. Every load and store goes through
  a whole staging buffer, so each buffer ends holding exactly the stored value.
-/
import proofs.«100009_g70300024701271_cont_9to1_m_399_17_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- After a first column step the accumulator holds the block product of the two input blocks. -/
theorem acc_first (c : Dev nD) (i : grid0.Coords) (a2 : Memref sig .tc .vmem S2048x2048 .f32) (h2 : a2.IsWhole) (a3 : Memref sig .tc .vmem S64x2048 .bf16) (h3 : a3.IsWhole) (a4 : Memref sig .tc .vmem S2048x64 .f32) (h4 : a4.IsWhole) (a5 : Memref sig .tc .vmem S2048x64 .f32) (h5 : a5.IsWhole) (hc0 : cond0_0 i) (hc1 : ¬cond0_1 i) (hc2 : ¬cond0_2 i)
    (x0 : Vec F S2048x2048 .f32) (x1 : Vec F S64x2048 .bf16) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz]
  simp only [View.readAt_eq_ld, h2.read_unread, h3.read_unread, View.ld_unit_zero (S := S2048x2048) hz,
    View.ld_unit_zero (S := S64x2048) hz]

/-- After a last column step the accumulator holds what it held plus the block product. -/
theorem acc_last (c : Dev nD) (i : grid0.Coords) (a2 : Memref sig .tc .vmem S2048x2048 .f32) (h2 : a2.IsWhole) (a3 : Memref sig .tc .vmem S64x2048 .bf16) (h3 : a3.IsWhole) (a4 : Memref sig .tc .vmem S2048x64 .f32) (h4 : a4.IsWhole) (a5 : Memref sig .tc .vmem S2048x64 .f32) (h5 : a5.IsWhole) (hc0 : ¬cond0_0 i) (hc1 : cond0_1 i) (hc2 : cond0_2 i)
    (x0 : Vec F S2048x2048 .f32) (x1 : Vec F S64x2048 .bf16) (xs0 : Vec F S2048x64 .f32) :
    sout0_B_0 c i a2 h2 a3 h3 a4 h4 a5 h5 hc0 hc1 hc2 x0 x1 xs0 = k0_pay3 x0 x1 xs0 := by
  unfold sout0_B_0
  rw [View.read_writes_eq_canon _ _ _ (scover0_B_0 c i a2 h2 a3 h3 a4 h4 a5 h5 hc0 hc1 hc2 x0 x1 xs0)]
  unfold kernelRun0_B
  dsimp only
  sl_unfold_words
  rw [View.canon_unit_zero hz]
  simp only [View.readAt_eq_ld, h2.read_unread, h3.read_unread, h5.read_unread, View.ld_unit_zero (S := S2048x2048) hz,
    View.ld_unit_zero (S := S64x2048) hz, View.ld_unit_zero (S := S2048x64) hz]

/-- After a last column step the output block holds the row softmax of the new accumulator. -/
theorem out_last (c : Dev nD) (i : grid0.Coords) (a2 : Memref sig .tc .vmem S2048x2048 .f32) (h2 : a2.IsWhole) (a3 : Memref sig .tc .vmem S64x2048 .bf16) (h3 : a3.IsWhole) (a4 : Memref sig .tc .vmem S2048x64 .f32) (h4 : a4.IsWhole) (a5 : Memref sig .tc .vmem S2048x64 .f32) (h5 : a5.IsWhole) (hc0 : ¬cond0_0 i) (hc1 : cond0_1 i) (hc2 : cond0_2 i)
    (x0 : Vec F S2048x2048 .f32) (x1 : Vec F S64x2048 .bf16) (xs0 : Vec F S2048x64 .f32) :
    out0_B_2 c i a2 h2 a3 h3 a4 h4 a5 h5 hc0 hc1 hc2 x0 x1 xs0 = k0_pay4 (k0_pay3 x0 x1 xs0) := by
  unfold out0_B_2
  rw [View.read_writes_eq_canon _ _ _ (cover0_B_2 c i a2 h2 a3 h3 a4 h4 a5 h5 hc0 hc1 hc2 x0 x1 xs0)]
  unfold kernelRun0_B
  dsimp only
  sl_unfold_words
  rw [View.canon_unit_zero hz, View.readCov_unit_zero (S := S2048x64) _ hz]
  simp only [View.readAt_eq_ld, h2.read_unread, h3.read_unread, h5.read_unread, View.ld_unit_zero (S := S2048x2048) hz,
    View.ld_unit_zero (S := S64x2048) hz, View.ld_unit_zero (S := S2048x64) hz]

end Cert.KernelIdeal.Pieces

end
-- ==== Proof.Blocks.lean ====
/-
  The input blocks a grid point stages, read at an index.

  The grid has 16 row blocks by 2 column blocks; point t is row block t / 2, column block t % 2. The token block at
  t is rows 2048·(t / 2) … and columns 2048·(t % 2) … of x; the weight block at t is all 64 rows and columns
  2048·(t % 2) … of the weights; the output block at t is rows 2048·(t / 2) … and all 64 columns. The weights the
  kernel sees were first changed to a narrower number format, which over the extended reals is the identity.
-/
import proofs.«100009_g70300024701271_cont_9to1_m_399_17_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

/-- The printed index maps over the grid: which block of each array point t stages. -/
theorem block_index : ∀ t : Fin cfg0.N,
    win0_0.index t (0 : Fin 2) = t.val / 2 ∧ win0_0.index t (1 : Fin 2) = t.val % 2
    ∧ win0_1.index t (0 : Fin 2) = 0 ∧ win0_1.index t (1 : Fin 2) = t.val % 2
    ∧ win0_2.index t (0 : Fin 2) = t.val / 2 ∧ win0_2.index t (1 : Fin 2) = 0 :=
  (by decide +kernel : ∀ t : Fin grid0.N, _)

variable (m : (ℓ : Loc nD τ sig) → Buf (Elt Ideal) ℓ)

/-- The weights as the region finds them are the weights as launched, entry by entry. -/
theorem weights_found (c : Dev nD) (i : S64x4096.Idx) :
    V m c main_v0 i = m ((c : Thread nD τ).loc main_arg1) i := by
  have e : (V m c main_v0 : S64x4096.Idx → EReal)
      = truncf (F := Ideal) .bf16 (m ((c : Thread nD τ).loc main_arg1)) bitsLt_bf16_f32 := by
    dsimp only [V, hostOps0]; after_results
  exact congrFun e i

/-- The token block at point t, entry (p, k), is entry (R, K) of x, where R and K are the entry's row and column in x. -/
theorem tokens_apply (c : Dev nD) (t : Fin cfg0.N) (p k : Fin 2048) (R : Fin 32768) (K : Fin 4096)
    (hR : R.val = 2048 * (t.val / 2) + p.val) (hK : K.val = 2048 * (t.val % 2) + k.val) :
    (iblk m c 0 t : Vec Ideal S2048x2048 .f32) (ix2 p k) = m ((c : Thread nD τ).loc main_arg0) (ix2 R K) := by
  obtain ⟨e0, e1, -⟩ := block_index t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = R.val; rw [e0]; omega
  | ⟨1, _⟩ => show win0_0.index t (1 : Fin 2) * 2048 + 1 * k.val = K.val; rw [e1]; omega

/-- The weight block at point t, entry (q, k), is entry (q, K) of the weights, where K is the entry's column there. -/
theorem weights_apply (c : Dev nD) (t : Fin cfg0.N) (q : Fin 64) (k : Fin 2048) (K : Fin 4096)
    (hK : K.val = 2048 * (t.val % 2) + k.val) :
    (iblk m c 1 t : Vec Ideal S64x2048 .bf16) (ix2 q k) = m ((c : Thread nD τ).loc main_arg1) (ix2 q K) := by
  obtain ⟨-, -, e2, e3, -⟩ := block_index t
  unfold iblk
  rw [View.read_apply]
  show V m c main_v0 (((cfg0.win 1).blk t).view.emb (ix2 q k)) = _
  rw [weights_found]
  refine congrArg _ (funext fun a => Fin.ext ?_)
  match a with
  | ⟨0, _⟩ => show win0_1.index t (0 : Fin 2) * 64 + 1 * q.val = q.val; rw [e2]; omega
  | ⟨1, _⟩ => show win0_1.index t (1 : Fin 2) * 2048 + 1 * k.val = K.val; rw [e3]; omega

end Cert.KernelIdeal.Blocks

end
-- ==== Proof.KernelGate.lean ====
/-
  The kernel's result array is the gate of its two arguments.

  Row block i of the result is written back once, after the point of row block i and the last column block. By
  then the accumulator holds, at (p, q), the block product over the first 2048 columns plus the block product over
  the last 2048 columns of token 2048·i + p against expert q, which is that token's whole logit; the body's last
  step turns the accumulator into its row softmax, which is the gate's rows 2048·i … of the whole result. The 16
  written blocks tile the 32768 rows, so the whole array ends at the gate.
-/
import proofs.«100009_g70300024701271_cont_9to1_m_399_17_alg».proof.Proof.Gen.KernelIdeal.Value
import proofs.«100009_g70300024701271_cont_9to1_m_399_17_alg».proof.Proof.Softmax
import proofs.«100009_g70300024701271_cont_9to1_m_399_17_alg».proof.Proof.Payloads
import proofs.«100009_g70300024701271_cont_9to1_m_399_17_alg».proof.Proof.Pieces
import proofs.«100009_g70300024701271_cont_9to1_m_399_17_alg».proof.Proof.Blocks

noncomputable section

open scoped BigOperators

namespace Cert.KernelIdeal.KernelGate

open Cert.KernelIdeal Cert.KernelIdeal.Gen Idealize.ShloMosaic Idealize.ShloMosaic.TcCoe Idealize.SL.Sem
open Idealize.ShloMosaic.Pipeline (Dat)
open Idealize.ShloMosaic.ValueIdx Cert.Gate Cert.KernelIdeal.Payloads Cert.KernelIdeal.Pieces Cert.KernelIdeal.Blocks

variable (m : (ℓ : Loc nD τ sig) → Buf (Elt Ideal) ℓ) (ρ : Dev nD → PrngReg)

/-! ## The accumulator and the output block after a point -/

/-- After a point of the first column block the accumulator holds the block product of the point's blocks. -/
theorem acc_even (c : Dev nD) (t : Fin cfg0.N) (h0 : t.val % 2 = 0) (h1 : ¬t.val % 2 = 1) :
    (outsAt0 m c t.val t.isLt).2 = k0_pay2 (F := Ideal) (iblk m c 0 t) (iblk m c 1 t) := by
  rw [outsAt0_A m c t h0 h1 h1]
  dsimp only
  exact acc_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (fun h => h1 ((hcond0_2 t).mp h))
    (iblk m c 0 t) (iblk m c 1 t)

/-- After a point of the last column block the output block holds the row softmax of what the point before left in
    the accumulator plus the block product of this point's blocks. -/
theorem out_odd (c : Dev nD) (t : Fin cfg0.N) (h0 : ¬t.val % 2 = 0) (h1 : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t h0 h1 h1]
  dsimp only
  exact out_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) ((hcond0_2 t).mpr h1)
    (iblk m c 0 t) (iblk m c 1 t) (outsAt0 m c (t.val - 1) (Nat.lt_of_le_of_lt (Nat.sub_le _ _) t.isLt)).2

/-- The two block products of a row block add up to the whole logit. -/
theorem logit_of_halves (c : Dev nD) (t t' : Fin cfg0.N) (h1 : t.val % 2 = 1) (ht' : t'.val = t.val - 1)
    (p : Fin 2048) (q : Fin 64) (R : Fin 32768) (hR : R.val = 2048 * (t.val / 2) + p.val) :
    blockDot (iblk m c 0 t') (iblk m c 1 t') p q + blockDot (iblk m c 0 t) (iblk m c 1 t) p q
      = logit (m ((c : Thread nD τ).loc main_arg0)) (m ((c : Thread nD τ).loc main_arg1)) R q := by
  unfold logit blockDot
  rw [sum_halves]
  refine congrArg₂ (· + ·) (Finset.sum_congr rfl fun k _ => ?_) (Finset.sum_congr rfl fun k _ => ?_)
  · rw [tokens_apply m c t' p k R ⟨k.val, by have := k.isLt; omega⟩ (by omega) (by dsimp only; omega),
      weights_apply m c t' q k ⟨k.val, by have := k.isLt; omega⟩ (by dsimp only; omega)]
  · rw [tokens_apply m c t p k R ⟨2048 + k.val, by have := k.isLt; omega⟩ (by omega) (by dsimp only; omega),
      weights_apply m c t q k ⟨2048 + k.val, by have := k.isLt; omega⟩ (by dsimp only; omega)]

/-- What a write-back point leaves in the output block, entry y, is the gate at the entry's place i in the result. -/
theorem out_at (c : Dev nD) (t : Fin cfg0.N) (h1 : t.val % 2 = 1) (y : S2048x64.Idx) (i : S32768x64.Idx)
    (hi0 : (i 0).val = 2048 * (t.val / 2) + (y 0).val) (hi1 : (i 1).val = (y 1).val) :
    (outsAt0 m c t.val t.isLt).1 y = gate (m ((c : Thread nD τ).loc main_arg0)) (m ((c : Thread nD τ).loc main_arg1)) i := by
  obtain ⟨p, q, rfl⟩ : ∃ (p : Fin 2048) (q : Fin 64), y = ix2 p q := ⟨y 0, y 1, eq_ix2 y⟩
  obtain ⟨R, e, rfl⟩ : ∃ (R : Fin 32768) (e : Fin 64), i = ix2 R e := ⟨i 0, i 1, eq_ix2 i⟩
  obtain rfl : e = q := Fin.ext hi1
  have hn' : t.val - 1 < cfg0.N := Nat.lt_of_le_of_lt (Nat.sub_le _ _) t.isLt
  have hacc : (outsAt0 m c (t.val - 1) hn').2
      = k0_pay2 (F := Ideal) (iblk m c 0 ⟨t.val - 1, hn'⟩) (iblk m c 1 ⟨t.val - 1, hn'⟩) :=
    acc_even m c ⟨t.val - 1, hn'⟩ (by dsimp only; omega) (by dsimp only; omega)
  rw [out_odd m c t (by omega) h1, hacc, softmax_apply, gate_apply]
  refine congrArg (fun l => rowSoftmax l e) (funext fun j => ?_)
  rw [later_apply, first_apply]
  exact logit_of_halves m c t ⟨t.val - 1, hn'⟩ h1 rfl p j R hi0

/-! ## From the blocks to the array -/

/-- What a write-back point writes back is its block of the gate. -/
theorem flushed_gate (c : Dev nD) (t : Fin cfg0.N) (hf : (cfg0.win 2).flush t = true) :
    (dats m 0 c).flushed 2 t = ((cfg0.win 2).blk t).view.read (Elt Ideal)
      (gate (m ((c : Thread nD τ).loc main_arg0)) (m ((c : Thread nD τ).loc main_arg1))) := by
  have h1 : t.val % 2 = 1 := (flush0_2 t).mp hf
  obtain ⟨-, -, -, -, e4, e5⟩ := block_index t
  rw [Cert.KernelIdeal.Value.flushed2]
  funext j
  show (outsAt0 m c t.val t.isLt).1 j = gate (m ((c : Thread nD τ).loc main_arg0)) (m ((c : Thread nD τ).loc main_arg1))
    (((cfg0.win 2).blk t).view.emb j)
  refine out_at m c t h1 j _ ?_ ?_
  · show win0_2.index t (0 : Fin 2) * 2048 + 1 * (j 0).val = 2048 * (t.val / 2) + (j 0).val
    rw [e4]; omega
  · show win0_2.index t (1 : Fin 2) * 64 + 1 * (j 1).val = (j 1).val
    rw [e5]; omega

/-- An index of the result is in point t's block iff each coordinate is in the block's range on its axis. -/
theorem mem_block (t : Fin cfg0.N) (i : S32768x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v1).slice (win0_2.rect t)).set ↔ _
  rw [View.set_slice_whole, Rect.mem_set_unit]
  exact Iff.rfl

/-- Row r of the result lies in the block written back after point 2·(r / 2048) + 1. -/
theorem covered (i : S32768x64.Idx) :
    ∃ t : Fin cfg0.N, (cfg0.win 2).flush t = true ∧ i ∈ ((cfg0.win 2).blk t).view.set := by
  have hi0 : (i 0).val < 32768 := idx2_lt0 i
  have hi1 : (i 1).val < 64 := idx2_lt1 i
  have hN : cfg0.N = 32 := N_0
  have ht : 2 * ((i 0).val / 2048) + 1 < cfg0.N := by rw [hN]; omega
  obtain ⟨-, -, -, -, e4, e5⟩ := block_index ⟨2 * ((i 0).val / 2048) + 1, ht⟩
  refine ⟨⟨2 * ((i 0).val / 2048) + 1, ht⟩, (flush0_2 _).mpr (by dsimp only; omega), ?_⟩
  rw [mem_block]
  intro a
  match a with
  | ⟨0, _⟩ =>
    show win0_2.index ⟨2 * ((i 0).val / 2048) + 1, ht⟩ (0 : Fin 2) * 2048 ≤ (i 0).val
      ∧ (i 0).val < win0_2.index ⟨2 * ((i 0).val / 2048) + 1, ht⟩ (0 : Fin 2) * 2048 + 2048
    rw [e4]; dsimp only; omega
  | ⟨1, _⟩ =>
    show win0_2.index ⟨2 * ((i 0).val / 2048) + 1, ht⟩ (1 : Fin 2) * 64 ≤ (i 1).val
      ∧ (i 1).val < win0_2.index ⟨2 * ((i 0).val / 2048) + 1, ht⟩ (1 : Fin 2) * 64 + 64
    rw [e5]; omega

/-- The result array after the run is the gate of the two arguments. -/
theorem final_gate (c : Dev nD) :
    (dats m 0 c).arrAt 2 cfg0.N = gate (m ((c : Thread nD τ).loc main_arg0)) (m ((c : Thread nD τ).loc main_arg1)) :=
  (dats m 0 c).arrAt_eq_of_cover 2 _ (flushed_gate m c) covered

/-- The kernel's run: the result at the gate of the arguments, the arguments unchanged. -/
theorem run : θ_run defs (onTc (τ := τ) (main (F := Ideal))) ⟨m, fun _ => 0, ρ⟩ fun r => ∀ c : Dev nD,
      r.2.mem ((c : Thread nD τ).loc main_v1) = gate (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_gate m c), (h c).2⟩)
    (Cert.KernelIdeal.Value.run_blocks m ρ)

end Cert.KernelIdeal.KernelGate

end
-- ==== Proof.lean ====
/-
  A fused router gate against its reference, over the extended reals.

  Both programs compute, for tokens x (32768 × 4096) and expert weights w (64 × 4096), the softmax over the 64
  experts of the logits x · wᵀ. The reference takes the whole product at once and then the row softmax. The kernel
  walks 16 row blocks of 2048 tokens; for each it adds the product over the first 2048 columns and the product over
  the last 2048 columns into an accumulator, then writes the accumulator's row softmax to the result. Its change of
  the weights and of each token block to a narrower number format is the identity over the extended reals.

  The two agree because a sum over 4096 columns is the sum over its two halves — addition of extended reals is
  commutative and associative, so this holds for every input and the finiteness of the inputs is never used — and
  because the row softmax is spelled with the same operations on both sides: the row maximum from minus infinity
  (the reference takes it once more against minus infinity, which changes nothing), the exponential of the shifted
  logit, the row sum from zero, and the quotient.

  The three runs are the generated ones; the kernel's idealization rewrote nothing.
-/
import proofs.«100009_g70300024701271_cont_9to1_m_399_17_alg».proof.Defs
import proofs.«100009_g70300024701271_cont_9to1_m_399_17_alg».proof.Proof.Gen.Kernel
import proofs.«100009_g70300024701271_cont_9to1_m_399_17_alg».proof.Proof.Gen.Kernel.Skeleton
import proofs.«100009_g70300024701271_cont_9to1_m_399_17_alg».proof.Proof.Gen.Kernel.Launch
import proofs.«100009_g70300024701271_cont_9to1_m_399_17_alg».proof.Proof.Gen.Kernel.Points
import proofs.«100009_g70300024701271_cont_9to1_m_399_17_alg».proof.Proof.Gen.Kernel.Frame
import proofs.«100009_g70300024701271_cont_9to1_m_399_17_alg».proof.Proof.Gen.KernelIdeal
import proofs.«100009_g70300024701271_cont_9to1_m_399_17_alg».proof.Proof.Gen.KernelIdeal.Skeleton
import proofs.«100009_g70300024701271_cont_9to1_m_399_17_alg».proof.Proof.Gen.KernelIdeal.Launch
import proofs.«100009_g70300024701271_cont_9to1_m_399_17_alg».proof.Proof.Gen.KernelIdeal.Points
import proofs.«100009_g70300024701271_cont_9to1_m_399_17_alg».proof.Proof.Gen.KernelIdeal.Frame
import proofs.«100009_g70300024701271_cont_9to1_m_399_17_alg».proof.Proof.Gen.ReferenceIdeal
import proofs.«100009_g70300024701271_cont_9to1_m_399_17_alg».proof.Proof.Gen.Pre_finite_inputs
import proofs.«100009_g70300024701271_cont_9to1_m_399_17_alg».proof.Proof.Gen.KernelIdeal.Value
import proofs.«100009_g70300024701271_cont_9to1_m_399_17_alg».proof.Proof.Gen.ReferenceIdeal.Run
import proofs.«100009_g70300024701271_cont_9to1_m_399_17_alg».proof.Proof.Gen.ReferenceIdeal.Read
import proofs.«100009_g70300024701271_cont_9to1_m_399_17_alg».proof.Proof.Softmax
import proofs.«100009_g70300024701271_cont_9to1_m_399_17_alg».proof.Proof.RefGate
import proofs.«100009_g70300024701271_cont_9to1_m_399_17_alg».proof.Proof.KernelGate
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree, the kernel's result array and the reference's both end at the gate of the arguments. -/
theorem algebraic : Cert.algebraic_KernelIdeal_ReferenceIdeal := by
  intro m ρ m' ρ' _ hagree
  refine ⟨fun c => Cert.Gate.gate (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelGate.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _).trans ?_
  rw [Cert.ReferenceIdeal.RefGate.gate_stage, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
